-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) (main_arg2 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S1x16384 : Shape := ⟨2, ![1, 16384]⟩
abbrev S16384x1 : Shape := ⟨2, ![16384, 1]⟩
abbrev S1x2048 : Shape := ⟨2, ![1, 2048]⟩
abbrev S2048x1 : Shape := ⟨2, ![2048, 1]⟩
abbrev S2048x2048 : Shape := ⟨2, ![2048, 2048]⟩
abbrev S2048 : Shape := ⟨1, ![2048]⟩
abbrev S_ : Shape := ⟨0, ![]⟩

abbrev nBuf : Space → Nat
  | .hbm => 36
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S16384, .f32⟩
  | .hbm, ⟨4, _⟩ => ⟨S1x16384, .f32⟩
  | .hbm, ⟨5, _⟩ => ⟨S16384x1, .f32⟩
  | .hbm, ⟨6, _⟩ => ⟨S16384x1, .f32⟩
  | .hbm, ⟨7, _⟩ => ⟨S1x16384, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S16384, .f32⟩
  | .hbm, ⟨12, _⟩ => ⟨S16384, .i1⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x2048, .f32⟩
  | .local _ .vmem, ⟨1, _⟩ => ⟨S1x2048, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S1x16384 : S16384.ShapeCasts S1x16384
  shapeCasts_S16384_S16384x1 : S16384.ShapeCasts S16384x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S1x2048_S2048x2048 : S1x2048.Broadcasts S2048x2048
  broadcasts_S2048x1_S2048x2048 : S2048x1.Broadcasts S2048x2048
  reduces_S2048x2048_S2048 : S2048x2048.Reduces [0] S2048
  shapeCasts_S2048_S1x2048 : S2048.ShapeCasts S1x2048
  shapeCasts_S1x16384_S16384 : S1x16384.ShapeCasts S16384
  reducesTo_S16384_S_d0 : S16384.ReducesTo [0] S_
  h_S_ : 0 < S_.numel
  bcast_S_S16384 : S_.BroadcastsInDim S16384 (![] : Fin 0 → Fin S16384.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x16384.size a
  hwx0_0 : ∀ i : grid0.Coords, EltTy.bits .f32 = 32 ∨ (Rect.block (s := S1x16384) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)

variable [Facts₀]

abbrev win0_0 : Pipeline.Window sig grid0 :=
  Pipeline.Window.ofSpec (Memref.whole main_v1) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S16384, .f32⟩
  | .hbm, ⟨4, _⟩ => ⟨S16384x1, .f32⟩
  | .hbm, ⟨5, _⟩ => ⟨S1x16384, .f32⟩
  | .hbm, ⟨6, _⟩ => ⟨S16384x16384, .f32⟩
  | .hbm, ⟨7, _⟩ => ⟨S16384x16384, .f32⟩
  | .hbm, ⟨8, _⟩ => ⟨S16384x16384, .i1⟩
  | .hbm, ⟨9, _⟩ => ⟨S1x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384, .f32⟩
  | .hbm, ⟨16, _⟩ => ⟨S16384x16384, .i32⟩
  | .hbm, ⟨17, _⟩ => ⟨S_, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  natLt_1_32 : 1 < 32
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Tail.lean ====
/-
  The end of the Cox partial-likelihood loss, as ONE function of what the two programs compute differently.

  Given, per query `i`: `pe i = exp (P_risk i)`, the risk-set sum `ps i = Σ_{j : T i < T j} exp (P_risk j)`, the indicator
  `hr i` of a non-empty risk set (0 or 1 as a float) and the event word `e i`:

      ef    = float(e) · hr
      ptmp  = pe / (ps + ε)                      ε the f32 word nearest 1e-6, the same word wherever it occurs
      upper = max_i ptmp i                       a running maximum from −∞
      clip  = min(upper, max(ε, ptmp))
      loss  = −(Σ_i log(clip i) · ef i) / (Σ_i ef i)

  Both programs end with exactly these operations in this order; they differ only in how they obtain `ps` and `hr`.
  The three shape facts the operations take (a scalar broadcasts to the vector, the vector reduces to a scalar, a
  scalar has an element) are hypotheses: they are propositions, so each program's own witnesses give the same function.
-/
import Idealize.ShloMosaic.Lib.StableHlo
import Idealize.ShloMosaic.PureOps

noncomputable section

namespace Risk

open Idealize.ShloMosaic

/-- One word per query. -/
abbrev Vq : Shape := ⟨1, ![16384]⟩
/-- A scalar. -/
abbrev Sc : Shape := ⟨0, ![]⟩

variable {F : FTy → Type} [FloatOps F]

/-- The loss from the exponentials `pe`, the risk-set sums `ps`, the risk-set indicators `hr` and the events `e`. -/
def tail (hb : Sc.BroadcastsInDim Vq (![] : Fin 0 → Fin Vq.rank)) (hred : Vq.ReducesTo [0] Sc) (h0 : 0 < Sc.numel)
    (pe ps hr : FVec F Vq .f32) (e : IVec Vq 32) : FVec F Sc .f32 :=
  let ef : FVec F Vq .f32 := mulf (sitofp .f32 e) hr
  let eps : FVec F Sc .f32 := constant Sc .f32 0x358637BD#32
  let ptmp : FVec F Vq .f32 := Host.divf pe (addf ps (broadcastInDim Vq ![] hb eps))
  let upper : FVec F Sc .f32 := Host.reduce FloatOps.maximumf ptmp (constant Sc .f32 0xFF800000#32) hred h0
  let clip : FVec F Vq .f32 :=
    minimumf (broadcastInDim Vq ![] hb upper) (maximumf (broadcastInDim Vq ![] hb (id eps)) ptmp)
  Host.divf
    (Host.negf (Host.reduceAdd (mulf (Host.log clip) ef) (constant Sc .f32 0x00000000#32) hred h0))
    (Host.reduceAdd ef (constant Sc .f32 0x00000000#32) hred h0)

end Risk

end
-- ==== Proof.RefOps.lean ====
/-
  The reference program as a straight line, and its result as a short term over named stages.

  @main of the reference is a line of 42 host operations (the two functions it calls, the select behind `where` and the
  two-sided `clip`, stand at their calls, over the buffers the calls name). Per query `i`:
  riskSum i = 0 + Σ_j (if T i < T j then exp (P j) else 0)  (one host sum along the keys),  riskCount i = Σ_j [T i < T j]
  as a 32-bit word,  hasRisk i = float [riskCount i > 0];  the result is  out P T E = tail (exp P) (riskSum P T) (hasRisk T) E,
  `tail` being the end of the loss.
-/
import proofs.«146655_j61873298866766_2_alg».proof.Proof.Gen.ReferenceIdeal
import proofs.«146655_j61873298866766_2_alg».proof.Proof.Tail
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The risk-set mask: entry (i, j) is 1 when `T i < T j` — the query time down the rows against the key time along the columns. -/
def mask (x1 : FVec F S16384 .f32) : IVec S16384x16384 1 :=
  cmpf .olt
    (broadcastInDim S16384x16384 ![0, 1] bcast_S16384x1_S16384x16384_0_1 (broadcastInDim S16384x1 ![0] bcast_S16384_S16384x1_0 x1))
    (broadcastInDim S16384x16384 ![0, 1] bcast_S1x16384_S16384x16384_0_1 (broadcastInDim S1x16384 ![1] bcast_S16384_S1x16384_1 x1))

/-- The masked exponentials: entry (i, j) is `exp (P j)` inside the risk set of `i`, zero outside. -/
def masked (x0 x1 : FVec F S16384 .f32) : FVec F S16384x16384 .f32 :=
  select (mask x1)
    (broadcastInDim S16384x16384 ![0, 1] bcast_S1x16384_S16384x16384_0_1 (broadcastInDim S1x16384 ![1] bcast_S16384_S1x16384_1 (Host.exp x0)))
    (broadcastInDim S16384x16384 ![] bcast_S_S16384x16384 (constant S_ .f32 0x00000000#32))

/-- The risk-set sum of each query: the host's sum of its row of masked exponentials, from zero. -/
def riskSum (x0 x1 : FVec F S16384 .f32) : FVec F S16384 .f32 :=
  Host.reduceAdd (masked x0 x1) (constant S_ .f32 0x00000000#32) reducesTo_S16384x16384_S16384_d1 h_S_

/-- The size of each query's risk set, as a 32-bit word: its row of the mask widened and added up from zero. -/
def riskCount (x1 : FVec F S16384 .f32) : IVec S16384 32 :=
  Host.reduce IntOp.addi (extui 32 (mask (F := F) x1) natLt_1_32) (constantI S_ 32 0#32) reducesTo_S16384x16384_S16384_d1 h_S_

/-- Whether each query's risk set is non-empty, as the float 1 or 0: the count compared, signed, with zero. -/
def hasRisk (x1 : FVec F S16384 .f32) : FVec F S16384 .f32 :=
  uitofp .f32 (cmpi .sgt (riskCount (F := F) x1) (broadcastInDim S16384 ![] bcast_S_S16384 (constantI S_ 32 0#32)))

/-- The reference's result as a function of its arguments. -/
def out (x0 x1 : FVec F S16384 .f32) (x2 : IVec S16384 32) : FVec F S_ .f32 :=
  Risk.tail bcast_S_S16384 reducesTo_S16384_S_d0 h_S_ (Host.exp x0) (riskSum x0 x1) (hasRisk x1) x2

/-! ## @main as a list of operations -/

/-- @main's 42 operations, in order; a called function's operations stand in its call's place, over the call's buffers. -/
abbrev ops : List (HloOp τ sig (Elt F)) :=
  [
    StableHlo.unary main_arg0 main_v0 (Host.exp : (⟨S16384, .f32⟩ : BufTy).Contents (Elt F) → (⟨S16384, .f32⟩ : BufTy).Contents (Elt F)),
    StableHlo.unary main_arg1 main_v1 (broadcastInDim S16384x1 ![0] bcast_S16384_S16384x1_0 : (⟨S16384, .f32⟩ : BufTy).Contents (Elt F) → (⟨S16384x1, .f32⟩ : BufTy).Contents (Elt F)),
    StableHlo.unary main_arg1 main_v2 (broadcastInDim S1x16384 ![1] bcast_S16384_S1x16384_1 : (⟨S16384, .f32⟩ : BufTy).Contents (Elt F) → (⟨S1x16384, .f32⟩ : BufTy).Contents (Elt F)),
    StableHlo.unary main_v1 main_v3 (broadcastInDim S16384x16384 ![0, 1] bcast_S16384x1_S16384x16384_0_1 : (⟨S16384x1, .f32⟩ : BufTy).Contents (Elt F) → (⟨S16384x16384, .f32⟩ : BufTy).Contents (Elt F)),
    StableHlo.unary main_v2 main_v4 (broadcastInDim S16384x16384 ![0, 1] bcast_S1x16384_S16384x16384_0_1 : (⟨S1x16384, .f32⟩ : BufTy).Contents (Elt F) → (⟨S16384x16384, .f32⟩ : BufTy).Contents (Elt F)),
    StableHlo.binary main_v3 main_v4 main_v5 (cmpf .olt : (⟨S16384x16384, .f32⟩ : BufTy).Contents (Elt F) → (⟨S16384x16384, .f32⟩ : BufTy).Contents (Elt F) → (⟨S16384x16384, .i1⟩ : BufTy).Contents (Elt F)),
    StableHlo.unary main_v0 main_v6 (broadcastInDim S1x16384 ![1] bcast_S16384_S1x16384_1 : (⟨S16384, .f32⟩ : BufTy).Contents (Elt F) → (⟨S1x16384, .f32⟩ : BufTy).Contents (Elt F)),
    StableHlo.nullary main_cst (constant S_ .f32 0x00000000#32),
    StableHlo.TRef.unary (.of main_v6 : StableHlo.TRef sig ⟨S1x16384, .f32⟩) main_call0.v0 (broadcastInDim S16384x16384 ![0, 1] bcast_S1x16384_S16384x16384_0_1),
    StableHlo.TRef.unary (.of main_cst : StableHlo.TRef sig ⟨S_, .f32⟩) main_call0.v1 (broadcastInDim S16384x16384 ![] bcast_S_S16384x16384),
    StableHlo.TRef.ternary (.of main_v5 : StableHlo.TRef sig ⟨S16384x16384, .i1⟩) main_call0.v0 main_call0.v1 main_call0.v2 select,
    StableHlo.nullary main_cst_0 (constant S_ .f32 0x00000000#32),
    StableHlo.binary main_v7 main_cst_0 main_v8 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    StableHlo.unary main_v5 main_v9 ((extui 32 · natLt_1_32) : (⟨S16384x16384, .i1⟩ : BufTy).Contents (Elt F) → (⟨S16384x16384, .i32⟩ : BufTy).Contents (Elt F)),
    StableHlo.nullary main_c (constantI S_ 32 0#32),
    StableHlo.binary main_v9 main_c main_v10 ((fun x v => Host.reduce IntOp.addi x v reducesTo_S16384x16384_S16384_d1 h_S_) : (⟨S16384x16384, .i32⟩ : BufTy).Contents (Elt F) → (⟨S_, .i32⟩ : BufTy).Contents (Elt F) → (⟨S16384, .i32⟩ : BufTy).Contents (Elt F)),
    StableHlo.nullary main_c_1 (constantI S_ 32 0#32),
    StableHlo.unary main_c_1 main_v11 (broadcastInDim S16384 ![] bcast_S_S16384 : (⟨S_, .i32⟩ : BufTy).Contents (Elt F) → (⟨S16384, .i32⟩ : BufTy).Contents (Elt F)),
    StableHlo.binary main_v10 main_v11 main_v12 (cmpi .sgt : (⟨S16384, .i32⟩ : BufTy).Contents (Elt F) → (⟨S16384, .i32⟩ : BufTy).Contents (Elt F) → (⟨S16384, .i1⟩ : BufTy).Contents (Elt F)),
    StableHlo.unary main_v12 main_v13 (uitofp .f32 : (⟨S16384, .i1⟩ : BufTy).Contents (Elt F) → (⟨S16384, .f32⟩ : BufTy).Contents (Elt F)),
    StableHlo.unary main_arg2 main_v14 (sitofp .f32 : (⟨S16384, .i32⟩ : BufTy).Contents (Elt F) → (⟨S16384, .f32⟩ : BufTy).Contents (Elt F)),
    StableHlo.binary main_v14 main_v13 main_v15 (mulf : (⟨S16384, .f32⟩ : BufTy).Contents (Elt F) → (⟨S16384, .f32⟩ : BufTy).Contents (Elt F) → (⟨S16384, .f32⟩ : BufTy).Contents (Elt F)),
    StableHlo.nullary main_cst_2 (constant S_ .f32 0x358637BD#32),
    StableHlo.unary main_cst_2 main_v16 (broadcastInDim S16384 ![] bcast_S_S16384 : (⟨S_, .f32⟩ : BufTy).Contents (Elt F) → (⟨S16384, .f32⟩ : BufTy).Contents (Elt F)),
    StableHlo.binary main_v8 main_v16 main_v17 (addf : (⟨S16384, .f32⟩ : BufTy).Contents (Elt F) → (⟨S16384, .f32⟩ : BufTy).Contents (Elt F) → (⟨S16384, .f32⟩ : BufTy).Contents (Elt F)),
    StableHlo.binary main_v0 main_v17 main_v18 (Host.divf : (⟨S16384, .f32⟩ : BufTy).Contents (Elt F) → (⟨S16384, .f32⟩ : BufTy).Contents (Elt F) → (⟨S16384, .f32⟩ : BufTy).Contents (Elt F)),
    StableHlo.nullary main_cst_3 (constant S_ .f32 0xFF800000#32),
    StableHlo.binary main_v18 main_cst_3 main_v19 ((fun x v => Host.reduce FloatOps.maximumf x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_4 (constant S_ .f32 0x358637BD#32),
    StableHlo.TRef.unary (.of main_cst_4 : StableHlo.TRef sig ⟨S_, .f32⟩) main_call1.v0 id,
    StableHlo.TRef.unary main_call1.v0 main_call1.v1 (broadcastInDim S16384 ![] bcast_S_S16384),
    StableHlo.TRef.binary main_call1.v1 (.of main_v18 : StableHlo.TRef sig ⟨S16384, .f32⟩) main_call1.v2 maximumf,
    StableHlo.TRef.unary (.of main_v19 : StableHlo.TRef sig ⟨S_, .f32⟩) main_call1.v3 (broadcastInDim S16384 ![] bcast_S_S16384),
    StableHlo.TRef.binary main_call1.v3 main_call1.v2 main_call1.v4 minimumf,
    StableHlo.unary main_v20 main_v21 (Host.log : (⟨S16384, .f32⟩ : BufTy).Contents (Elt F) → (⟨S16384, .f32⟩ : BufTy).Contents (Elt F)),
    StableHlo.binary main_v21 main_v15 main_v22 (mulf : (⟨S16384, .f32⟩ : BufTy).Contents (Elt F) → (⟨S16384, .f32⟩ : BufTy).Contents (Elt F) → (⟨S16384, .f32⟩ : BufTy).Contents (Elt F)),
    StableHlo.nullary main_cst_5 (constant S_ .f32 0x00000000#32),
    StableHlo.binary main_v22 main_cst_5 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.unary main_v23 main_v24 (Host.negf : (⟨S_, .f32⟩ : BufTy).Contents (Elt F) → (⟨S_, .f32⟩ : BufTy).Contents (Elt F)),
    StableHlo.nullary main_cst_6 (constant S_ .f32 0x00000000#32),
    StableHlo.binary main_v15 main_cst_6 main_v25 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.binary main_v24 main_v25 main_v26 (Host.divf : (⟨S_, .f32⟩ : BufTy).Contents (Elt F) → (⟨S_, .f32⟩ : BufTy).Contents (Elt F) → (⟨S_, .f32⟩ : BufTy).Contents (Elt F)) ]

set_option maxRecDepth 8192 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., unary_bufs_sub .., binary_bufs_sub .., unary_bufs_sub .., binary_bufs_sub .., unary_bufs_sub .., binary_bufs_sub .., nullary_bufs_sub .., binary_bufs_sub .., unary_bufs_sub .., nullary_bufs_sub .., binary_bufs_sub .., binary_bufs_sub ..⟩

end Cert.ReferenceIdeal.RefRun

end
-- ==== Proof.RefRun.lean ====
/-
  The reference program's run, read back.

  Every weakly fair execution of a straight line of host operations terminates with each buffer at the fold of the
  operations over the launch contents. Read at the result buffer, the fold of the reference's 42 operations is `out` of
  the three arguments' launch contents (each operation leaves its function's value at its own buffer and every other
  buffer as it was; a stage several later operations read is visited once); read at an argument, it is the argument,
  which no operation writes.
-/
import proofs.«146655_j61873298866766_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd in
set_option maxRecDepth 16384 in
set_option maxHeartbeats 1600000 in
/-- The fold read at the result buffer is `out` of the arguments' contents; the sums and the running maximum stay
    folded meanwhile (the equation never looks inside them). -/
theorem out_eq (V : Valuation τ sig (Elt F)) :
    after ops V (main_v26 : DevRef τ sig)
      = out (V (main_arg0 : DevRef τ sig)) (V (main_arg1 : DevRef τ sig)) (V (main_arg2 : DevRef τ sig)) := by
  after_results_simp
  unfold out Risk.tail riskSum masked hasRisk riskCount mask
  rfl

set_option maxRecDepth 16384 in
theorem arg0_eq (V : Valuation τ sig (Elt F)) : after ops V (main_arg0 : DevRef τ sig) = V (main_arg0 : DevRef τ sig) := by
  after_results_simp
set_option maxRecDepth 16384 in
theorem arg1_eq (V : Valuation τ sig (Elt F)) : after ops V (main_arg1 : DevRef τ sig) = V (main_arg1 : DevRef τ sig) := by
  after_results_simp
set_option maxRecDepth 16384 in
theorem arg2_eq (V : Valuation τ sig (Elt F)) : after ops V (main_arg2 : DevRef τ sig) = V (main_arg2 : DevRef τ sig) := by
  after_results_simp

/-- On every device, for any float values, from any memory with zero counters: every weakly fair execution of @main
    terminates with the result at `out` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v26).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.Pieces.lean ====
/-
  What each case of the body leaves behind, as the body's payloads.

  A grid point (i, j) runs the body in one of three cases. At the first key tile (j = 0, case A) the accumulator is
  overwritten by zeros and then gains this tile's sums; in between (case B) it gains this tile's sums over what the
  point before left; at the last key tile (j = 7, case C) it does the same and is then copied to the output block. The
  run of each case found the stores as lists of pieces; read back, every list is ONE whole-buffer store of a payload:

      case A, accumulator:  pay2 t s p pay1          (pay1 the zero row)
      case B, accumulator:  pay2 t s p acc
      case C, accumulator:  pay2 t s p acc           and the output block holds the same row.

  (t, s, p the point's blocks of query times, key times and key exponentials, acc what the point before left.)
  Nothing here depends on what the float operations mean: the statements hold at any instance.
-/
import proofs.«146655_j61873298866766_2_alg».proof.Proof.Gen.KernelIdeal.Frame
import Idealize.ShloMosaic.Lib.Pipeline.Value
import Idealize.ShloMosaic.Lib.Tactic

set_option maxRecDepth 16384

noncomputable section

namespace Cert.KernelIdeal.RiskBody

open Cert.KernelIdeal Cert.KernelIdeal.Gen
open Idealize.ShloMosaic Idealize.ShloMosaic.TcCoe Idealize.ShloMosaic.Tactic Idealize.SL.Sem

variable {F : FTy → Type} [FloatOps F]

/-- Every load and store of the body is at offset (0, 0) of its buffer. -/
theorem off_zero : (![0, 0] : Fin 2 → Nat) = fun _ => 0 := funext fun a => by fin_cases a <;> rfl

/-- Case B: the accumulator ends at this tile's sums added to what it held. -/
theorem scratch_B (c : Dev nD) (i : grid0.Coords) (arg2 : Memref sig .tc .vmem S1x2048 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : ¬cond0_1 i) (x0 : Vec F S1x2048 .f32) (x1 : Vec F S2048x1 .f32) (x2 : Vec F S2048x1 .f32) (xs0 : Vec F S1x2048 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero off_zero]
  simp only [View.readAt_eq_ld, harg2.read_unread, harg3.read_unread, harg4.read_unread, harg6.read_unread,
    View.ld_unit_zero (S := S1x2048) off_zero, View.ld_unit_zero (S := S2048x1) off_zero]

/-- Case A: the accumulator, first overwritten by the zero row, ends at this tile's sums added to zeros. -/
theorem scratch_A (c : Dev nD) (i : grid0.Coords) (arg2 : Memref sig .tc .vmem S1x2048 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x2048 .f32) (harg5 : arg5.IsWhole) (arg6 : Memref sig .tc .vmem S1x2048 .f32) (harg6 : arg6.IsWhole) (hc0 : cond0_0 i) (hc1 : ¬cond0_1 i) (x0 : Vec F S1x2048 .f32) (x1 : Vec F S2048x1 .f32) (x2 : Vec F S2048x1 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x2048) off_zero, View.readCov_unit_zero (S := S1x2048) _ off_zero]
  simp only [View.readAt_eq_ld, harg2.read_unread, harg3.read_unread, harg4.read_unread,
    View.ld_unit_zero (S := S1x2048) off_zero, View.ld_unit_zero (S := S2048x1) off_zero]

/-- Case C: the accumulator ends as in case B, -/
theorem scratch_C (c : Dev nD) (i : grid0.Coords) (arg2 : Memref sig .tc .vmem S1x2048 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : cond0_1 i) (x0 : Vec F S1x2048 .f32) (x1 : Vec F S2048x1 .f32) (x2 : Vec F S2048x1 .f32) (xs0 : Vec F S1x2048 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero off_zero]
  simp only [View.readAt_eq_ld, harg2.read_unread, harg3.read_unread, harg4.read_unread, harg6.read_unread,
    View.ld_unit_zero (S := S1x2048) off_zero, View.ld_unit_zero (S := S2048x1) off_zero]

/-- and the output block is written with the accumulator as it then stands: the same row. -/
theorem output_C (c : Dev nD) (i : grid0.Coords) (arg2 : Memref sig .tc .vmem S1x2048 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : cond0_1 i) (x0 : Vec F S1x2048 .f32) (x1 : Vec F S2048x1 .f32) (x2 : Vec F S2048x1 .f32) (xs0 : Vec F S1x2048 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero off_zero, View.readCov_unit_zero (S := S1x2048) _ off_zero]
  simp only [View.readAt_eq_ld, harg2.read_unread, harg3.read_unread, harg4.read_unread, harg6.read_unread,
    View.ld_unit_zero (S := S1x2048) off_zero, View.ld_unit_zero (S := S2048x1) off_zero]

end Cert.KernelIdeal.RiskBody

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Payload.lean ====
/-
  What one grid point's body computes, lane by lane, on the extended reals.

  The body holds a row of 2048 query times `t` (block of the [1, N] array), a column of 2048 key times `s` and a column of
  the keys' exponentials `p` (blocks of [N, 1] arrays), and the accumulator row `acc`. It forms the 2048-by-2048 table whose
  entry (r, q) is `p r` when `t q < s r` and zero otherwise, adds each column of the table up, and adds the sums to the
  accumulator:
        new acc q = acc q + Σ_r (if t q < s r then p r else 0).
  At the first key tile the accumulator has just been overwritten by zeros.
-/
import proofs.«146655_j61873298866766_2_alg».proof.Proof.Gen.KernelIdeal.Skeleton
import proofs.«146655_j61873298866766_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RiskBody

open Cert.KernelIdeal Cert.KernelIdeal.Gen Idealize.ShloMosaic Idealize.ShloMosaic.ValueIdx

/-- A select on the outcome of an ordered "less than" of two extended reals is the `if` on the inequality. -/
theorem select_olt (a b x y : EReal) :
    Scalar.select (FloatOps.cmpf (F := Ideal) (φ := .f32) .olt a b) x y = if a < b then x else y := by
  show (if BitVec.ofBool (decide (a < b)) = 1 then x else y) = _
  by_cases h : a < b
  · rw [if_pos h, decide_eq_true h]; rfl
  · rw [if_neg h, decide_eq_false h]; rfl

/-- The sum down each column of a 2048-by-2048 table, from the zero word: at lane `q` the sum over the rows `r` of entry (r, q). -/
theorem colSum_apply (x : FVec Ideal S2048x2048 .f32) (h : S2048x2048.Reduces [0] S2048) (hφ : FKind.Formats .f32)
    (hacc : (0x00000000#32 : BitVec 32) = 0x00000000#32) (q : Fin 2048) :
    multiReduction (F := Ideal) .add [0] S2048 x 0x00000000#32 h hφ hacc (ix1 q) = ∑ r : Fin 2048, x (ix2 r q) := by
  refine (Ideal.multiReduction_add_single x 0x00000000#32 h hφ hacc (ix1 q)).trans ?_
  refine Finset.sum_congr rfl fun r _ => congrArg x ?_
  funext c; apply Fin.ext
  fin_cases c <;> rfl

/-- The payload stored at the first key tile before anything is accumulated: zero in every lane. -/
theorem pay1_apply (j : S1x2048.Idx) : k0_pay1 (F := Ideal) j = 0 := by
  unfold k0_pay1
  refine (congrFun (shapeCast_self _ _) j).trans ?_
  exact Ideal.ofBits_zero_f32

/-- The accumulator after the body: lane `q` gains the sum, over the tile's keys, of the exponentials of those whose time
    exceeds the query's. -/
theorem pay2_apply (t : FVec Ideal S1x2048 .f32) (s p : FVec Ideal S2048x1 .f32) (acc : FVec Ideal S1x2048 .f32)
    (u : Fin 1) (q : Fin 2048) :
    k0_pay2 (F := Ideal) t s p acc (ix2 u q)
      = acc (ix2 u q) + ∑ r : Fin 2048,
          (if t (ix2 (0 : Fin 1) q) < s (ix2 r (0 : Fin 1)) then p (ix2 r (0 : Fin 1)) else 0) := by
  unfold k0_pay2
  refine (congrFun (shapeCast_self _ _) (ix2 u q)).trans ?_
  refine congrArg (acc (ix2 u q) + ·) ?_
  refine (shapeCast_a_1a_apply _ _ u q).trans ?_
  refine (colSum_apply _ _ _ _ q).trans ?_
  refine Finset.sum_congr rfl fun r _ => ?_
  refine (select_olt _ _ _ _).trans ?_
  have ht : broadcastTo S2048x2048 (shapeCast S1x2048 t shapeCasts_S1x2048_S1x2048) broadcasts_S1x2048_S2048x2048 (ix2 r q)
      = t (ix2 (0 : Fin 1) q) := by
    rw [shapeCast_self]; exact broadcastTo_1b_ab_apply t _ r q
  have hs : broadcastTo S2048x2048 (shapeCast S2048x1 s shapeCasts_S2048x1_S2048x1) broadcasts_S2048x1_S2048x2048 (ix2 r q)
      = s (ix2 r (0 : Fin 1)) := by
    rw [shapeCast_self]; exact Cert.Lib.broadcastTo_a1_ab_apply s _ r q
  have hp : broadcastTo S2048x2048 (shapeCast S2048x1 (shapeCast S2048x1 p shapeCasts_S2048x1_S2048x1) shapeCasts_S2048x1_S2048x1)
        broadcasts_S2048x1_S2048x2048 (ix2 r q) = p (ix2 r (0 : Fin 1)) := by
    rw [shapeCast_self, shapeCast_self]; exact Cert.Lib.broadcastTo_a1_ab_apply p _ r q
  have hz : (broadcast S2048x2048 (Scalar.ofBits (F := Ideal) .f32 0x00000000#32) : FVec Ideal S2048x2048 .f32) (ix2 r q) = 0 :=
    Ideal.ofBits_zero_f32
  rw [ht, hs, hp, hz]

end Cert.KernelIdeal.RiskBody

end
-- ==== Proof.TileSum.lean ====
/-
  A sum over the 16384 keys taken in 8 consecutive tiles of 2048: on the extended reals (a commutative
  monoid under +) the sum over all keys is the sum over the tiles of each tile's sum, the key of tile
  `b` and offset `r` being `2048 * b + r`.
-/
import Mathlib.Algebra.BigOperators.Fin
import Mathlib.Data.EReal.Basic
import Mathlib.Logic.Equiv.Fin.Basic

namespace Risk

open Finset

/-- The key at offset `r` of tile `b`. -/
def key (b : Fin 8) (r : Fin 2048) : Fin 16384 := ⟨2048 * b.val + r.val, by omega⟩

theorem key_val (b : Fin 8) (r : Fin 2048) : (key b r).val = 2048 * b.val + r.val := rfl

/-- Every key is the key of exactly one (tile, offset): `k = 2048 * (k / 2048) + k % 2048`. -/
def keyEquiv : Fin 8 × Fin 2048 ≃ Fin 16384 where
  toFun p := key p.1 p.2
  invFun k := (⟨k.val / 2048, by omega⟩, ⟨k.val % 2048, by omega⟩)
  left_inv p := by
    rcases p with ⟨b, r⟩
    apply Prod.ext <;> apply Fin.ext <;> simp only [key_val] <;> omega
  right_inv k := by
    apply Fin.ext; simp only [key_val]; omega

/-- A sum over all keys is the sum over the tiles of the sum inside each tile, in any commutative monoid. -/
theorem sum_keys {M : Type*} [AddCommMonoid M] (g : Fin 16384 → M) :
    ∑ k : Fin 16384, g k = ∑ b : Fin 8, ∑ r : Fin 2048, g (key b r) := by
  rw [← Equiv.sum_comp keyEquiv g, Fintype.sum_prod_type]
  rfl

/-- The same key with the tile number any natural number (reduced into range): what a grid point's number gives directly. -/
def keyN (b : ℕ) (r : Fin 2048) : Fin 16384 := ⟨(2048 * b + r.val) % 16384, Nat.mod_lt _ (by decide)⟩

theorem keyN_val (b : ℕ) (r : Fin 2048) : (keyN b r).val = (2048 * b + r.val) % 16384 := rfl

theorem keyN_eq (b : Fin 8) (r : Fin 2048) : keyN b.val r = key b r :=
  Fin.ext (by rw [keyN_val, key_val]; exact Nat.mod_eq_of_lt (by omega))

/-- The sum over the first eight tiles, numbered by naturals, is the sum over all keys. -/
theorem sum_range_tiles {M : Type*} [AddCommMonoid M] (g : Fin 16384 → M) :
    ∑ b ∈ Finset.range 8, ∑ r : Fin 2048, g (keyN b r) = ∑ k : Fin 16384, g k := by
  rw [sum_keys g, ← Fin.sum_univ_eq_sum_range (fun b => ∑ r : Fin 2048, g (keyN b r)) 8]
  exact Finset.sum_congr rfl fun b _ => Finset.sum_congr rfl fun r _ => by rw [keyN_eq]

end Risk
-- ==== Proof.Blocks.lean ====
/-
  The blocks a grid point reads, as entries of the arrays the region finds.

  The grid is 8 by 8: point `t` is query tile `t / 8` and key tile `t % 8`. The query-time row [1, N] is cut into blocks
  of 2048 columns and the point reads block `t / 8`; the key-time column and the key-exponential column [N, 1] are cut
  into blocks of 2048 rows and the point reads block `t % 8` of each. So lane `q` of the query block is query
  `2048 (t / 8) + q`, and row `r` of a key block is key `2048 (t % 8) + r`. The output row [1, N] is cut like the query row.
-/
import proofs.«146655_j61873298866766_2_alg».proof.Proof.Gen.KernelIdeal.Frame
import proofs.«146655_j61873298866766_2_alg».proof.Proof.TileSum
import Idealize.ShloMosaic.Lib.ValueIdx
import Idealize.ShloMosaic.Lib.Pipeline.Value

set_option maxRecDepth 16384

noncomputable section

namespace Cert.KernelIdeal.RiskBody

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps, decided over the 64 points: the row windows move with the query tile, the column windows
    with the key tile. -/
theorem idx_facts : ∀ t : Fin cfg0.N,
    win0_0.index t (0 : Fin 2) = 0 ∧ win0_0.index t (1 : Fin 2) = t.val / 8
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val / 8 :=
  (by decide +kernel : ∀ t : Fin grid0.N, _)

/-- Lane `q` of the point's block of query times is query `2048 (t / 8) + q` of the row. -/
theorem qblk_apply (c : Dev nD) (t : Fin cfg0.N) (u : Fin 1) (q : Fin 2048) :
    (iblk m c 0 t : Vec F S1x2048 .f32) (ix2 u q) = V m c main_v1 (ix2 (0 : Fin 1) (Risk.keyN (t.val / 8) q)) := by
  obtain ⟨e0, e1, -⟩ := idx_facts t
  have hN : t.val < 64 := lt_of_lt_of_eq t.isLt (show cfg0.N = 64 from N_0)
  show V m c main_v1 (((cfg0.win 0).blk t).view.emb (ix2 u q)) = _
  refine congrArg (V m c main_v1) ?_
  funext a; apply Fin.ext
  match a with
  | ⟨0, _⟩ => show win0_0.index t (0 : Fin 2) * 1 + 1 * u.val = 0; have := u.isLt; omega
  | ⟨1, _⟩ => show win0_0.index t (1 : Fin 2) * 2048 + 1 * q.val = (2048 * (t.val / 8) + q.val) % 16384
              have := q.isLt; omega

/-- Row `r` of the point's block of key times is key `2048 (t % 8) + r` of the column. -/
theorem kblk_apply (c : Dev nD) (t : Fin cfg0.N) (r : Fin 2048) (u : Fin 1) :
    (iblk m c 1 t : Vec F S2048x1 .f32) (ix2 r u) = V m c main_v2 (ix2 (Risk.keyN (t.val % 8) r) (0 : Fin 1)) := by
  obtain ⟨-, -, e0, e1, -⟩ := idx_facts t
  show V m c main_v2 (((cfg0.win 1).blk t).view.emb (ix2 r u)) = _
  refine congrArg (V m c main_v2) ?_
  funext a; apply Fin.ext
  match a with
  | ⟨0, _⟩ => show win0_1.index t (0 : Fin 2) * 2048 + 1 * r.val = (2048 * (t.val % 8) + r.val) % 16384
              have := r.isLt; omega
  | ⟨1, _⟩ => show win0_1.index t (1 : Fin 2) * 1 + 1 * u.val = 0; have := u.isLt; omega

/-- Row `r` of the point's block of key exponentials is key `2048 (t % 8) + r` of the column. -/
theorem pblk_apply (c : Dev nD) (t : Fin cfg0.N) (r : Fin 2048) (u : Fin 1) :
    (iblk m c 2 t : Vec F S2048x1 .f32) (ix2 r u) = V m c main_v3 (ix2 (Risk.keyN (t.val % 8) r) (0 : Fin 1)) := by
  obtain ⟨-, -, -, -, e0, e1, -⟩ := idx_facts t
  show V m c main_v3 (((cfg0.win 2).blk t).view.emb (ix2 r u)) = _
  refine congrArg (V m c main_v3) ?_
  funext a; apply Fin.ext
  match a with
  | ⟨0, _⟩ => show win0_2.index t (0 : Fin 2) * 2048 + 1 * r.val = (2048 * (t.val % 8) + r.val) % 16384
              have := r.isLt; omega
  | ⟨1, _⟩ => show win0_2.index t (1 : Fin 2) * 1 + 1 * u.val = 0; have := u.isLt; omega

end Cert.KernelIdeal.RiskBody

end
-- ==== Proof.Accumulate.lean ====
/-
  The accumulator across the grid.

  For a fixed query tile the eight key tiles are visited in order, j = 0 … 7 (points 8a, 8a + 1, …, 8a + 7). The
  accumulator row is reset at j = 0 and gains, at every point, the point's masked sums; so after point `n` its lane `q`
  holds the masked sums of the key tiles 0 … n % 8 for the query `2048 (n / 8) + q`:

        acc_n q = Σ_{b ≤ n % 8} Σ_r term (2048 (n / 8) + q) (2048 b + r),
        term i k = if T i < T k then exp (P k) else 0     (read off the arrays the region finds).

  By induction on the point: at a tile's first point the sum restarts from the zero row; at any other point `n + 1` the
  query tile is that of `n` and the key tile is the next one, so the sum gains one more term. At j = 7 the row is copied
  to the output block.
-/
import proofs.«146655_j61873298866766_2_alg».proof.Proof.Pieces
import proofs.«146655_j61873298866766_2_alg».proof.Proof.Payload
import proofs.«146655_j61873298866766_2_alg».proof.Proof.Blocks

set_option maxRecDepth 16384

noncomputable section

namespace Cert.KernelIdeal.RiskBody

open Cert.KernelIdeal Cert.KernelIdeal.Gen
open Idealize.ShloMosaic Idealize.ShloMosaic.TcCoe Idealize.ShloMosaic.ValueIdx Idealize.SL.Sem

/-! ## What a point leaves, at any reading of the floats -/

section AnyF

variable {F : FTy → Type} [FloatOps F]
variable (m : (ℓ : Loc nD τ sig) → Buf (Elt F) ℓ)

/-- A tile's first point leaves the accumulator at the point's masked sums over zeros. -/
theorem row_A (c : Dev nD) (t : Fin cfg0.N) (h0 : t.val % 8 = 0) (h1 : ¬t.val % 8 = 7) :
    (outsAt0 m c t.val t.isLt).2 = k0_pay2 (iblk m c 0 t) (iblk m c 1 t) (iblk m c 2 t) (k0_pay1 (F := F)) := by
  rw [outsAt0_A m c t h0 h1]
  dsimp only
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- A middle point leaves the accumulator at the point's masked sums over what the point before left. -/
theorem row_B (c : Dev nD) (t : Fin cfg0.N) (h0 : ¬t.val % 8 = 0) (h1 : ¬t.val % 8 = 7) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- A tile's last point does the same, -/
theorem row_C (c : Dev nD) (t : Fin cfg0.N) (h0 : ¬t.val % 8 = 0) (h1 : t.val % 8 = 7) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and leaves the output block at the same row. -/
theorem out_C (c : Dev nD) (t : Fin cfg0.N) (h0 : ¬t.val % 8 = 0) (h1 : t.val % 8 = 7) :
    (outsAt0 m c t.val t.isLt).1 = k0_pay2 (iblk m c 0 t) (iblk m c 1 t) (iblk m c 2 t) (outsAt0 m c (t.val - 1) (Nat.lt_of_le_of_lt (Nat.sub_le _ _) t.isLt)).2 := by
  rw [outsAt0_C m c t h0 h1]
  dsimp only
  exact output_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end AnyF

/-! ## The running sum, on the extended reals -/

variable (m : (ℓ : Loc nD τ sig) → Buf (Elt Ideal) ℓ)

/-- The query-time row, the key-time column and the key-exponential column, as the region finds them. -/
abbrev Trow (c : Dev nD) : FVec Ideal S1x16384 .f32 := V m c main_v1
abbrev Tcol (c : Dev nD) : FVec Ideal S16384x1 .f32 := V m c main_v2
abbrev Pcol (c : Dev nD) : FVec Ideal S16384x1 .f32 := V m c main_v3

/-- Key `k`'s contribution to query `i`: its exponential when its time exceeds the query's, else nothing. -/
def term (c : Dev nD) (i k : Fin 16384) : EReal :=
  if Trow m c (ix2 (0 : Fin 1) i) < Tcol m c (ix2 k (0 : Fin 1)) then Pcol m c (ix2 k (0 : Fin 1)) else 0

/-- Key tile `b`'s contribution to query `i`. -/
def tileSum (c : Dev nD) (i : Fin 16384) (b : ℕ) : EReal := ∑ r : Fin 2048, term m c i (Risk.keyN b r)

/-- An `if` on a strict inequality depends only on the three numbers it mentions. -/
theorem ite_lt_congr {a a' b b' p p' : EReal} (ha : a = a') (hb : b = b') (hp : p = p') :
    (if a < b then p else 0) = (if a' < b' then p' else 0) := by rw [ha, hb, hp]

/-- One point adds its key tile's contribution to each lane of the accumulator. -/
theorem point_sum (c : Dev nD) (t : Fin cfg0.N) (acc : FVec Ideal S1x2048 .f32) (u : Fin 1) (q : Fin 2048) :
    k0_pay2 (F := Ideal) (iblk m c 0 t) (iblk m c 1 t) (iblk m c 2 t) acc (ix2 u q)
      = acc (ix2 u q) + tileSum m c (Risk.keyN (t.val / 8) q) (t.val % 8) := by
  refine (pay2_apply (iblk m c 0 t) (iblk m c 1 t) (iblk m c 2 t) acc u q).trans ?_
  refine congrArg (acc (ix2 u q) + ·) (Finset.sum_congr rfl fun r _ => ?_)
  exact ite_lt_congr (qblk_apply m c t (0 : Fin 1) q) (kblk_apply m c t r (0 : Fin 1)) (pblk_apply m c t r (0 : Fin 1))

/-- After point `n`, lane `q` of the accumulator holds the contributions of the key tiles 0 … n % 8 to query 2048 (n / 8) + q. -/
theorem acc_inv (c : Dev nD) : ∀ (n : ℕ) (h : n < cfg0.N) (u : Fin 1) (q : Fin 2048),
    (outsAt0 m c n h).2 (ix2 u q) = ∑ b ∈ Finset.range (n % 8 + 1), tileSum m c (Risk.keyN (n / 8) q) b
  | 0, h, u, q => by
    have e := congrFun (row_A m c ⟨0, h⟩ (Nat.zero_mod 8) (by show ¬(0 % 8 = 7); decide)) (ix2 u q)
    refine e.trans ?_
    refine (point_sum m c ⟨0, h⟩ _ u q).trans ?_
    rw [pay1_apply, zero_add]
    show tileSum m c (Risk.keyN (0 / 8) q) (0 % 8) = ∑ b ∈ Finset.range (0 % 8 + 1), tileSum m c (Risk.keyN (0 / 8) q) b
    simp
  | n + 1, h, u, q => by
    have hN : n + 1 < 64 := lt_of_lt_of_eq h (show cfg0.N = 64 from N_0)
    by_cases h0 : (n + 1) % 8 = 0
    · have h1 : ¬(n + 1) % 8 = 7 := by omega
      have e := congrFun (row_A m c ⟨n + 1, h⟩ h0 h1) (ix2 u q)
      refine e.trans ?_
      refine (point_sum m c ⟨n + 1, h⟩ _ u q).trans ?_
      rw [pay1_apply, zero_add]
      show tileSum m c (Risk.keyN ((n + 1) / 8) q) ((n + 1) % 8) = _
      rw [h0]; simp
    · have ih := acc_inv c n (Nat.lt_of_succ_lt h) u q
      have hq : (n + 1) / 8 = n / 8 := by omega
      have hr : (n + 1) % 8 = n % 8 + 1 := by omega
      have step : (outsAt0 m c (n + 1) h).2 (ix2 u q)
          = (outsAt0 m c n (Nat.lt_of_succ_lt h)).2 (ix2 u q) + tileSum m c (Risk.keyN ((n + 1) / 8) q) ((n + 1) % 8) := by
        by_cases h1 : (n + 1) % 8 = 7
        · exact (congrFun (row_C m c ⟨n + 1, h⟩ h0 h1) (ix2 u q)).trans (point_sum m c ⟨n + 1, h⟩ _ u q)
        · exact (congrFun (row_B m c ⟨n + 1, h⟩ h0 h1) (ix2 u q)).trans (point_sum m c ⟨n + 1, h⟩ _ u q)
      rw [step, ih, hq, hr]
      exact (Finset.sum_range_succ _ _).symm

/-- So at a tile's last point the output block holds, in lane `q`, the contributions of all eight key tiles. -/
theorem out_last (c : Dev nD) (t : Fin cfg0.N) (h1 : t.val % 8 = 7) (u : Fin 1) (q : Fin 2048) :
    (outsAt0 m c t.val t.isLt).1 (ix2 u q) = ∑ b ∈ Finset.range 8, tileSum m c (Risk.keyN (t.val / 8) q) b := by
  have h0 : ¬t.val % 8 = 0 := by omega
  rw [out_C m c t h0 h1, ← row_C m c t h0 h1, acc_inv m c t.val t.isLt u q, h1]

end Cert.KernelIdeal.RiskBody

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.Inputs.lean ====
/-
  The arrays the region finds, as the arguments.

  Before the region the host computes `exp P` and lays three arrays out for the kernel: the query times `T` as a row
  [1, N], the key times `T` as a column [N, 1], and the key exponentials `exp P` as a column [N, 1]. A reshape keeps
  the row-major order, so the row's entry (0, i) is `T i`, the columns' entries (k, 0) are `T k` and `exp (P k)`.
-/
import proofs.«146655_j61873298866766_2_alg».proof.Proof.Gen.KernelIdeal.Frame
import proofs.«146655_j61873298866766_2_alg».proof.Proof.LibColCast
import Idealize.ShloMosaic.Lib.ValueLayout
import Idealize.ShloMosaic.Lib.StableHlo.Run

set_option maxRecDepth 16384

noncomputable section

namespace Cert.KernelIdeal.RiskBody

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The query-time row is `T` recast to [1, N]. -/
theorem V_trow (c : Dev nD) :
    (V m c main_v1 : FVec F S1x16384 .f32)
      = shapeCast S1x16384 (m ((c : Thread nD τ).loc main_arg1) : FVec F S16384 .f32) shapeCasts_S16384_S1x16384 := by
  show StableHlo.after hostOps0 (fun b => m (c, b)) (Proc.devRef .tc main_v1) = _
  after_results <;> rfl

/-- The key-time column is `T` recast to [N, 1]. -/
theorem V_tcol (c : Dev nD) :
    (V m c main_v2 : FVec F S16384x1 .f32)
      = shapeCast S16384x1 (m ((c : Thread nD τ).loc main_arg1) : FVec F S16384 .f32) shapeCasts_S16384_S16384x1 := by
  show StableHlo.after hostOps0 (fun b => m (c, b)) (Proc.devRef .tc main_v2) = _
  after_results <;> rfl

/-- The key-exponential column is `exp P` recast to [N, 1]. -/
theorem V_pcol (c : Dev nD) :
    (V m c main_v3 : FVec F S16384x1 .f32)
      = shapeCast S16384x1 (Host.exp (m ((c : Thread nD τ).loc main_arg0) : FVec F S16384 .f32)) shapeCasts_S16384_S16384x1 := by
  show StableHlo.after hostOps0 (fun b => m (c, b)) (Proc.devRef .tc main_v3) = _
  after_results <;> rfl

/-- The exponentials themselves, as the lines after the region read them. -/
theorem V_pexp (c : Dev nD) :
    (V m c main_v0 : FVec F S16384 .f32) = Host.exp (m ((c : Thread nD τ).loc main_arg0) : FVec F S16384 .f32) := by
  show StableHlo.after hostOps0 (fun b => m (c, b)) (Proc.devRef .tc main_v0) = _
  after_results <;> rfl

/-- Entry (0, i) of the query-time row is `T i`. -/
theorem trow_apply (c : Dev nD) (i : Fin 16384) :
    (V m c main_v1 : FVec F S1x16384 .f32) (ix2 (0 : Fin 1) i) = (m ((c : Thread nD τ).loc main_arg1) : FVec F S16384 .f32) (ix1 i) :=
  (congrFun (V_trow m c) _).trans (shapeCast_a_1a_apply _ _ (0 : Fin 1) i)

/-- Entry (k, 0) of the key-time column is `T k`. -/
theorem tcol_apply (c : Dev nD) (k : Fin 16384) :
    (V m c main_v2 : FVec F S16384x1 .f32) (ix2 k (0 : Fin 1)) = (m ((c : Thread nD τ).loc main_arg1) : FVec F S16384 .f32) (ix1 k) :=
  (congrFun (V_tcol m c) _).trans (Cert.Lib.shapeCast_a_a1_apply _ _ k (0 : Fin 1))

/-- Entry (k, 0) of the key-exponential column is `exp (P k)`. -/
theorem pcol_apply (c : Dev nD) (k : Fin 16384) :
    (V m c main_v3 : FVec F S16384x1 .f32) (ix2 k (0 : Fin 1))
      = Host.exp (m ((c : Thread nD τ).loc main_arg0) : FVec F S16384 .f32) (ix1 k) :=
  (congrFun (V_pcol m c) _).trans (Cert.Lib.shapeCast_a_a1_apply _ _ k (0 : Fin 1))

end Cert.KernelIdeal.RiskBody

end
-- ==== Proof.RegionValue.lean ====
/-
  What the region leaves in its result array.

  The result row [1, N] is written back block by block: the block of query tile `a` at the tile's last point, 8a + 7,
  and at no other point. There the output block's lane `q` holds the contributions of all eight key tiles to query
  `2048 a + q` — and eight tiles of 2048 keys are all 16384 keys, so it holds

        psum i = Σ_k term i k,      term i k = if T i < T k then exp (P k) else 0.

  Every query lies in exactly one written-back block (query `i` in the block of tile `i / 2048`), so the blocks cover the
  row and the array ends holding `psum` everywhere.
-/
import proofs.«146655_j61873298866766_2_alg».proof.Proof.Accumulate
import proofs.«146655_j61873298866766_2_alg».proof.Proof.Inputs

set_option maxRecDepth 16384

noncomputable section

namespace Cert.KernelIdeal.RiskBody

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The risk-set sums, as a row: entry (0, i) is the sum over all keys of their contributions to query `i`. -/
def psumRow (c : Dev nD) : FVec Ideal S1x16384 .f32 :=
  fun j => ∑ k : Fin 16384, term m c ⟨(j 1).val, (j 1).isLt⟩ k

theorem psumRow_apply (c : Dev nD) (u : Fin 1) (i : Fin 16384) : psumRow m c (ix2 u i) = ∑ k : Fin 16384, term m c i k := rfl

/-- Lane `q` of the output block of point `t` is query `2048 (t / 8) + q` of the row. -/
theorem oblk_emb (t : Fin cfg0.N) (u : Fin 1) (q : Fin 2048) :
    ((cfg0.win 3).blk t).view.emb (ix2 u q) = ix2 (0 : Fin 1) (Risk.keyN (t.val / 8) q) := by
  obtain ⟨-, -, -, -, -, -, e0, e1⟩ := idx_facts t
  have hN : t.val < 64 := lt_of_lt_of_eq t.isLt (show cfg0.N = 64 from N_0)
  funext a; apply Fin.ext
  match a with
  | ⟨0, _⟩ => show win0_3.index t (0 : Fin 2) * 1 + 1 * u.val = 0; have := u.isLt; omega
  | ⟨1, _⟩ => show win0_3.index t (1 : Fin 2) * 2048 + 1 * q.val = (2048 * (t.val / 8) + q.val) % 16384
              have := q.isLt; omega

/-- What a point that writes the output back writes: its block of any row `G` whose entry (0, i) is the sum over all
    keys of their contributions to query `i` (the row is kept a variable: nothing here looks inside the sum). -/
theorem flushed_eq_of (c : Dev nD) (G : FVec Ideal S1x16384 .f32)
    (hG : ∀ i : Fin 16384, G (ix2 (0 : Fin 1) i) = ∑ k : Fin 16384, term m c i k)
    (t : Fin cfg0.N) (hf : (cfg0.win 3).flush t = true) :
    (dats m 0 c).flushed 3 t = ((cfg0.win 3).blk t).view.read (Elt Ideal) G := by
  have h7 : t.val % 8 = 7 := (flush0_3 t).mp hf
  show (cfg0.win 3).cut (grid0.coords t) ((dats m 0 c).after 3 t) = _
  rw [after0_3]
  funext y
  obtain ⟨u, q, rfl⟩ : ∃ (u : Fin 1) (q : Fin 2048), y = ix2 u q := ⟨y 0, y 1, eq_ix2 y⟩
  show (outsAt0 m c t.val t.isLt).1 (ix2 u q) = G (((cfg0.win 3).blk t).view.emb (ix2 u q))
  rw [oblk_emb t u q, hG, out_last m c t h7 u q]
  exact Risk.sum_range_tiles (fun k => term m c (Risk.keyN (t.val / 8) q) k)

/-- Every entry of the row lies in the block some point writes back: query `i` in that of point 8 (i / 2048) + 7. -/
theorem cover (i : S1x16384.Idx) :
    ∃ t : Fin cfg0.N, (cfg0.win 3).flush t = true ∧ i ∈ ((cfg0.win 3).blk t).view.set := by
  have hi0 : (i 0).val < 1 := (i 0).isLt
  have hi1 : (i 1).val < 16384 := (i 1).isLt
  have hN : cfg0.N = 64 := N_0
  have hlt : 8 * ((i 1).val / 2048) + 7 < cfg0.N := by rw [hN]; omega
  obtain ⟨-, -, -, -, -, -, e0, e1⟩ := idx_facts ⟨8 * ((i 1).val / 2048) + 7, hlt⟩
  refine ⟨⟨8 * ((i 1).val / 2048) + 7, hlt⟩, (flush0_3 _).mpr (by show (8 * ((i 1).val / 2048) + 7) % 8 = 7; omega), ?_⟩
  show i ∈ ((View.whole main_v4).slice (win0_3.rect ⟨8 * ((i 1).val / 2048) + 7, hlt⟩)).set
  rw [View.set_slice_whole, Rect.mem_set_unit]
  intro a
  match a with
  | ⟨0, _⟩ =>
    show win0_3.index ⟨8 * ((i 1).val / 2048) + 7, hlt⟩ (0 : Fin 2) * 1 ≤ (i 0).val
      ∧ (i 0).val < win0_3.index ⟨8 * ((i 1).val / 2048) + 7, hlt⟩ (0 : Fin 2) * 1 + 1
    rw [e0]; omega
  | ⟨1, _⟩ =>
    show win0_3.index ⟨8 * ((i 1).val / 2048) + 7, hlt⟩ (1 : Fin 2) * 2048 ≤ (i 1).val
      ∧ (i 1).val < win0_3.index ⟨8 * ((i 1).val / 2048) + 7, hlt⟩ (1 : Fin 2) * 2048 + 2048
    rw [e1]
    show (8 * ((i 1).val / 2048) + 7) / 8 * 2048 ≤ (i 1).val ∧ (i 1).val < (8 * ((i 1).val / 2048) + 7) / 8 * 2048 + 2048
    omega

/-- So the result array ends holding the risk-set sums. -/
theorem final (c : Dev nD) : (dats m 0 c).arrAt 3 cfg0.N = psumRow m c :=
  (dats m 0 c).arrAt_eq_of_cover 3 (psumRow m c)
    (fun t hf => flushed_eq_of m c (psumRow m c) (fun i => psumRow_apply m c (0 : Fin 1) i) t hf) (fun i => cover i)

/-- The arguments `T` and `P` on core `c`, as vectors of extended reals. -/
abbrev Targ (c : Dev nD) : FVec Ideal S16384 .f32 := m ((c : Thread nD τ).loc main_arg1)
abbrev Parg (c : Dev nD) : FVec Ideal S16384 .f32 := m ((c : Thread nD τ).loc main_arg0)

/-- A key's contribution, in terms of the arguments: `exp (P k)` when `T i < T k`, else nothing. -/
theorem term_eq (c : Dev nD) (i k : Fin 16384) :
    term m c i k = if Targ m c (ix1 i) < Targ m c (ix1 k) then Host.exp (Parg m c) (ix1 k) else 0 :=
  ite_lt_congr (trow_apply m c i) (tcol_apply m c k) (pcol_apply m c k)

end Cert.KernelIdeal.RiskBody

end
-- ==== Proof.KernelTail.lean ====
/-
  The lines after the region, read back.

  After the region the host takes the region's result row back to a vector, forms the indicator of a non-empty risk
  set as  T i < max T  (a running maximum of the times from −∞), and ends the loss. Every operation leaves its
  function's value at its own buffer and every other buffer alone, so the 28 operations' fold, read at the result
  buffer, is the loss's end applied to what the tail finds at four buffers: the exponentials, the region's result
  row, and the arguments `T` and `E`. The tail finds the region's result array at what the region left in it, and
  every other buffer as the lines before the region left it.
-/
import proofs.«146655_j61873298866766_2_alg».proof.Proof.Gen.KernelIdeal.Frame
import proofs.«146655_j61873298866766_2_alg».proof.Proof.Tail
import proofs.«146655_j61873298866766_2_alg».proof.Proof.Inputs
import Idealize.ShloMosaic.Lib.StableHlo.Run

set_option maxRecDepth 16384

noncomputable section

namespace Cert.KernelIdeal.RiskTail

open Cert.KernelIdeal Cert.KernelIdeal.Gen Cert.KernelIdeal.RiskBody
open Idealize.ShloMosaic Idealize.ShloMosaic.TcCoe Idealize.SL.Sem Idealize.ShloMosaic.StableHlo

variable {F : FTy → Type} [FloatOps F]

/-- Whether each query's risk set is non-empty, the kernel's way: its time is below the largest time. -/
def hasRiskK (x1 : FVec F S16384 .f32) : FVec F S16384 .f32 :=
  uitofp .f32 (cmpf .olt x1
    (broadcastInDim S16384 ![] bcast_S_S16384
      (Host.reduce FloatOps.maximumf x1 (constant S_ .f32 0xFF800000#32) reducesTo_S16384_S_d0 h_S_)))

/-- The kernel program's result from the exponentials, the region's result row, the times and the events. -/
def outK (pe : FVec F S16384 .f32) (row : FVec F S1x16384 .f32) (x1 : FVec F S16384 .f32) (x2 : IVec S16384 32) :
    FVec F S_ .f32 :=
  Risk.tail bcast_S_S16384 reducesTo_S16384_S_d0 h_S_ pe (shapeCast S16384 row shapeCasts_S1x16384_S16384) (hasRiskK x1) x2

attribute [local irreducible] Host.reduce Host.reduceAdd in
set_option maxHeartbeats 1600000 in
/-- The fold of the lines after the region, read at the result buffer, from any contents `W`. -/
theorem tail_eq (W : Valuation τ sig (Elt F)) :
    after ([hostOps1, hostOps1_1, hostOps1_2] : List (List (HloOp τ sig (Elt F)))).flatten W (Proc.devRef .tc main_v22)
      = outK (W (Proc.devRef .tc main_v0)) (W (Proc.devRef .tc main_v4)) (W (Proc.devRef .tc main_arg1))
          (W (Proc.devRef .tc main_arg2)) := by
  simp only [hostOps1, hostOps1_1, hostOps1_2, List.flatten_cons, List.flatten_nil, List.append_nil, List.cons_append,
    List.nil_append]
  after_results_simp
  unfold outK Risk.tail hasRiskK
  rfl

variable (m : (ℓ : Loc nD τ sig) → Buf (Elt F) ℓ) (ρ : Dev nD → PrngReg)

/-- The result buffer after the whole program, given what the region left in its result array. -/
theorem result_eq (c : Dev nD) (row : FVec F S1x16384 .f32) (hrow : (dats m 0 c).arrAt 3 cfg0.N = row) :
    Pipeline.afterTail₀ cfgs (dats m) 0 (V0 m) [hostOps1, hostOps1_1, hostOps1_2] c main_v22
      = outK (Host.exp (m ((c : Thread nD τ).loc main_arg0) : FVec F S16384 .f32)) row
          (m ((c : Thread nD τ).loc main_arg1)) (m ((c : Thread nD τ).loc main_arg2)) := by
  unfold Pipeline.afterTail₀
  refine (tail_eq _).trans ?_
  refine congr (congr (congr (congrArg outK ?_) ?_) ?_) ?_
  · exact (Pipeline.withArrays_of_ne _ c (V0 m c) _ main_v0 (by exact (by decide : ∀ w, Pipeline.arrRef spec0 w ≠ main_v0))).trans
      (V_pexp m c)
  · exact (Pipeline.withArrays_arr spec0 launch0.win.arr_inj c _ _ 3).trans hrow
  · exact (Pipeline.withArrays_of_ne _ c (V0 m c) _ main_arg1 (by exact (by decide : ∀ w, Pipeline.arrRef spec0 w ≠ main_arg1))).trans
      (V_main_arg1 m c)
  · exact (Pipeline.withArrays_of_ne _ c (V0 m c) _ main_arg2 (by exact (by decide : ∀ w, Pipeline.arrRef spec0 w ≠ main_arg2))).trans
      (V_main_arg2 m c)

/-- The kernel program's run, read: every weakly fair execution terminates with the result at `outK` of the
    exponentials, the region's result row `row`, `T` and `E`, and the arguments unchanged. -/
theorem run (row : (c : Dev nD) → FVec F S1x16384 .f32) (hrow : ∀ c, (dats m 0 c).arrAt 3 cfg0.N = row c) :
    θ_run defs (onTc (τ := τ) (main (F := F))) ⟨m, fun _ => 0, ρ⟩ fun r => ∀ c : Dev nD,
      r.2.mem ((c.tc : Thread nD τ).loc main_v22)
          = outK (Host.exp (m ((c.tc : Thread nD τ).loc main_arg0) : FVec F S16384 .f32)) (row c)
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (result_eq m c (row c) (hrow c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RiskTail

end
-- ==== Proof.BridgeSum.lean ====
/-
  The reference's risk-set sum, read at a query.

  The reference forms the N-by-N table whose entry (i, k) is `exp (P k)` when `T i < T k` and zero otherwise — the query
  time spread along each row, the key time and the key's exponential spread down each column — and adds each row up
  from zero. So its entry `i` is  0 + Σ_k (if T i < T k then exp (P k) else 0),  and zero added to an extended real
  changes nothing.
-/
import proofs.«146655_j61873298866766_2_alg».proof.Proof.RefOps
import proofs.«146655_j61873298866766_2_alg».proof.Proof.Payload
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun
open Idealize.ShloMosaic Idealize.ShloMosaic.ValueIdx

/-- A vector spread along the rows of the square table: entry (i, k) is the vector's entry `i`. -/
theorem alongRows_apply (x : FVec Ideal S16384 .f32) (i k : Fin 16384) :
    broadcastInDim S16384x16384 ![0, 1] bcast_S16384x1_S16384x16384_0_1 (broadcastInDim S16384x1 ![0] bcast_S16384_S16384x1_0 x) (ix2 i k)
      = x (ix1 i) := by
  refine (broadcastInDim_apply _ bcast_S16384x1_S16384x16384_0_1 _ (ix2 i k) (ix2 i (0 : Fin 1)) fun a => ?_).trans
    (broadcastInDim_apply _ bcast_S16384_S16384x1_0 x (ix2 i (0 : Fin 1)) (ix1 i) fun a => ?_)
  · match a with
    | ⟨0, _⟩ => show i.val = if (16384 : ℕ) = 1 then 0 else i.val; rw [if_neg (by decide)]
    | ⟨1, _⟩ => show (0 : ℕ) = if (1 : ℕ) = 1 then 0 else k.val; rw [if_pos rfl]
  · match a with
    | ⟨0, _⟩ => show i.val = if (16384 : ℕ) = 1 then 0 else i.val; rw [if_neg (by decide)]

/-- A vector spread down the columns of the square table: entry (i, k) is the vector's entry `k`. -/
theorem downCols_apply (x : FVec Ideal S16384 .f32) (i k : Fin 16384) :
    broadcastInDim S16384x16384 ![0, 1] bcast_S1x16384_S16384x16384_0_1 (broadcastInDim S1x16384 ![1] bcast_S16384_S1x16384_1 x) (ix2 i k)
      = x (ix1 k) := by
  refine (broadcastInDim_apply _ bcast_S1x16384_S16384x16384_0_1 _ (ix2 i k) (ix2 (0 : Fin 1) k) fun a => ?_).trans
    (broadcastInDim_apply _ bcast_S16384_S1x16384_1 x (ix2 (0 : Fin 1) k) (ix1 k) fun a => ?_)
  · match a with
    | ⟨0, _⟩ => show (0 : ℕ) = if (1 : ℕ) = 1 then 0 else i.val; rw [if_pos rfl]
    | ⟨1, _⟩ => show k.val = if (16384 : ℕ) = 1 then 0 else k.val; rw [if_neg (by decide)]
  · match a with
    | ⟨0, _⟩ => show k.val = if (16384 : ℕ) = 1 then 0 else k.val; rw [if_neg (by decide)]

/-- The mask's entry (i, k): whether `T i < T k`, as a one-bit word. -/
theorem mask_apply (x1 : FVec Ideal S16384 .f32) (i k : Fin 16384) :
    mask (F := Ideal) x1 (ix2 i k) = FloatOps.cmpf (F := Ideal) (φ := .f32) .olt (x1 (ix1 i)) (x1 (ix1 k)) := by
  show FloatOps.cmpf (F := Ideal) (φ := .f32) .olt _ _ = _
  rw [alongRows_apply x1 i k, downCols_apply x1 i k]

/-- The masked table's entry (i, k): the key's exponential inside the query's risk set, zero outside. -/
theorem masked_apply (x0 x1 : FVec Ideal S16384 .f32) (i k : Fin 16384) :
    masked (F := Ideal) x0 x1 (ix2 i k) = if x1 (ix1 i) < x1 (ix1 k) then Host.exp x0 (ix1 k) else 0 := by
  show Scalar.select (mask (F := Ideal) x1 (ix2 i k)) _ _ = _
  rw [mask_apply x1 i k, downCols_apply (Host.exp x0) i k]
  refine (Cert.KernelIdeal.RiskBody.select_olt _ _ _ _).trans ?_
  have hz : broadcastInDim S16384x16384 ![] bcast_S_S16384x16384 (constant (F := Ideal) S_ .f32 0x00000000#32) (ix2 i k) = 0 :=
    (broadcastInDim_apply _ bcast_S_S16384x16384 _ (ix2 i k) ix0 fun a => a.elim0).trans Ideal.ofBits_zero_f32
  rw [hz]

/-- The reference's risk-set sum of query `i`: the sum over all keys of the exponentials of those whose time exceeds `T i`. -/
theorem riskSum_apply (x0 x1 : FVec Ideal S16384 .f32) (i : Fin 16384) :
    riskSum (F := Ideal) x0 x1 (ix1 i) = ∑ k : Fin 16384, (if x1 (ix1 i) < x1 (ix1 k) then Host.exp x0 (ix1 k) else 0) := by
  unfold riskSum
  simp only [Host.reduceAdd, Ideal.hostReduceAdd_def]
  rw [Ideal.hostReduceAdd_single reducesTo_S16384x16384_S16384_d1 (by decide)]
  have h0 : (constant (F := Ideal) S_ .f32 0x00000000#32) (Shape.Idx.first h_S_) = (0 : EReal) := Ideal.ofBits_zero_f32
  rw [h0, zero_add]
  refine Finset.sum_congr rfl fun k _ => ?_
  exact (congrArg (masked (F := Ideal) x0 x1)
    (funext fun a => Fin.ext (by match a with | ⟨0, _⟩ => rfl | ⟨1, _⟩ => rfl))).trans (masked_apply x0 x1 i k)

end Cert.ReferenceIdeal.RefRead

end
-- ==== Proof.RiskSet.lean ====
/-
  Two facts about the risk set of a query time `x` among key times `T k`.

  * Order. In a linear order with a least element the running maximum of finitely many keys, started at
    the least element, is one of the keys (or the least element itself), so `x` is below that maximum
    exactly when it is below some key: "x < max T" and "some T k exceeds x" are the same statement.
  * Count. Adding up 32-bit words that are each 0 or 1, fewer than 2^31 of them, never wraps: the total
    is the number of ones, and it is positive as a signed word exactly when some word is 1.
-/
import Idealize.ShloMosaic.PureOps.Ideal.Laws

namespace Risk

open Idealize.ShloMosaic

/-- `x` is below the maximum of the keys over `s`, folded from the least element, iff it is below one of them. -/
theorem lt_fold_max_bot {ι α : Type*} [LinearOrder α] [OrderBot α] (s : Finset ι) (T : ι → α) (x : α) :
    x < s.fold max ⊥ T ↔ ∃ k ∈ s, x < T k := by
  rw [Finset.lt_fold_max]
  constructor
  · rintro (h | h)
    · exact absurd h not_lt_bot
    · exact h
  · exact Or.inr

/-- A word that is 0 or 1 has value at most 1. -/
theorem toNat_le_one {v : BitVec 32} (h : v = 0#32 ∨ v = 1#32) : v.toNat ≤ 1 := by
  rcases h with rfl | rfl <;> decide

/-- Fewer than 2^32 words, each 0 or 1, added up from 0: the total's value is the number of ones. -/
theorem toNat_fold_addi {ι : Type*} [DecidableEq ι] (w : ι → BitVec 32) (hw : ∀ k, w k = 0#32 ∨ w k = 1#32) :
    ∀ s : Finset ι, s.card < 2 ^ 32 →
      (s.fold IntOp.addi 0#32 w).toNat = (s.filter fun k => w k = 1#32).card := by
  intro s
  induction s using Finset.induction_on with
  | empty => intro _; rfl
  | @insert a s ha ih =>
    intro hc
    rw [Finset.card_insert_of_notMem ha] at hc
    have ih' := ih (by omega)
    have hle : (s.filter fun k => w k = 1#32).card ≤ s.card := Finset.card_filter_le _ _
    rw [Finset.fold_insert ha]
    show (w a + s.fold IntOp.addi 0#32 w).toNat = _
    rw [BitVec.toNat_add, ih', Finset.filter_insert]
    rcases hw a with h0 | h1
    · have hne : ¬ w a = 1#32 := by rw [h0]; decide
      rw [if_neg hne, h0]
      show (0 + _) % 2 ^ 32 = _
      rw [Nat.zero_add, Nat.mod_eq_of_lt (by omega)]
    · rw [if_pos h1, h1]
      have hnm : a ∉ s.filter fun k => w k = 1#32 := fun h => ha (Finset.mem_filter.mp h).1
      rw [Finset.card_insert_of_notMem hnm]
      show (1 + _) % 2 ^ 32 = _
      rw [Nat.mod_eq_of_lt (by omega)]; omega

/-- A word below 2^31 is positive as a signed word iff its value is positive. -/
theorem sgt_zero_iff {v : BitVec 32} (hv : v.toNat < 2 ^ 31) :
    IntOp.cmpi .sgt v 0#32 = 1#1 ↔ 0 < v.toNat := by
  have hi : v.toInt = (v.toNat : Int) := by
    rw [BitVec.toInt_eq_toNat_cond]; rw [if_pos (by omega)]
  show BitVec.ofBool ((0#32).slt v) = 1#1 ↔ _
  rw [BitVec.slt, hi]
  constructor
  · intro h
    by_contra hn
    have hz : v.toNat = 0 := by omega
    rw [hz] at h; revert h; decide
  · intro h
    have : decide ((0#32).toInt < (v.toNat : Int)) = true := by
      apply decide_eq_true; show (0 : Int) < _; exact_mod_cast h
    rw [this]; rfl

/-- The count of the risk set, as the kernel's reference takes it: over fewer than 2^31 keys, the sum of the 0/1
    words is signed-positive iff some word is 1. -/
theorem count_pos_iff {ι : Type*} [DecidableEq ι] (w : ι → BitVec 32) (hw : ∀ k, w k = 0#32 ∨ w k = 1#32)
    (s : Finset ι) (hs : s.card < 2 ^ 31) :
    IntOp.cmpi .sgt (s.fold IntOp.addi 0#32 w) 0#32 = 1#1 ↔ ∃ k ∈ s, w k = 1#32 := by
  have hsum := toNat_fold_addi w hw s (by omega)
  have hle : (s.filter fun k => w k = 1#32).card ≤ s.card := Finset.card_filter_le _ _
  rw [sgt_zero_iff (by omega), hsum, Finset.card_pos]
  constructor
  · rintro ⟨k, hk⟩; exact ⟨k, (Finset.mem_filter.mp hk).1, (Finset.mem_filter.mp hk).2⟩
  · rintro ⟨k, hks, hk⟩; exact ⟨k, Finset.mem_filter.mpr ⟨hks, hk⟩⟩

end Risk
-- ==== Proof.BridgeRisk.lean ====
/-
  The two ways to the risk-set indicator agree.

  The kernel program says a query has a non-empty risk set when its time is below the largest time; the reference
  counts the keys with a larger time and asks whether the count is positive. On the extended reals the largest of
  finitely many times is one of them, so "T i < max T" holds exactly when "T i < T k" for some key k; and the count,
  a sum of N = 16384 < 2^31 words that are each 0 or 1, never wraps, so it is positive exactly when some key's word
  is 1. Both indicators are the float of a one-bit word, and the two words are 1 under the same condition.
-/
import proofs.«146655_j61873298866766_2_alg».proof.Proof.KernelTail
import proofs.«146655_j61873298866766_2_alg».proof.Proof.BridgeSum
import proofs.«146655_j61873298866766_2_alg».proof.Proof.RiskSet
import Idealize.ShloMosaic.PureOps.Reduce

noncomputable section

namespace Cert.Proof.Indicator

open Idealize.ShloMosaic Idealize.ShloMosaic.ValueIdx

/-- Two one-bit words that are 1 under equivalent conditions are the same word. -/
theorem bit_eq_of_iff : ∀ b₁ b₂ : BitVec 1, (b₁ = 1#1 ↔ b₂ = 1#1) → b₁ = b₂ := by decide

/-- The ordered "less than" of two extended reals is the word 1 exactly when the inequality holds. -/
theorem olt_eq_one_iff (a b : EReal) : FloatOps.cmpf (F := Ideal) (φ := .f32) .olt a b = 1#1 ↔ a < b := by
  show BitVec.ofBool (decide (a < b)) = 1#1 ↔ _
  by_cases h : a < b
  · simp [h]
  · simp [h]

/-- The word of −∞ is the least extended real. -/
theorem negInf : Ideal.ofBits .f32 0xFF800000#32 = (⊥ : EReal) := by simp [Ideal.ofBits, Ideal.ieee]

/-- At the extended reals the float maximum is the order's. -/
theorem maximumf_eq_max : (FloatOps.maximumf (F := Ideal) (φ := .f32)) = (max : EReal → EReal → EReal) := rfl

/-- A one-bit word widened to 32 bits is 1 exactly when the bit is, and is 0 or 1. -/
theorem widen_eq_one_iff : ∀ b : BitVec 1, b.setWidth 32 = 1#32 ↔ b = 1#1 := by decide
theorem widen_zero_or_one : ∀ b : BitVec 1, b.setWidth 32 = 0#32 ∨ b.setWidth 32 = 1#32 := by decide

/-! ## The kernel program's word -/

section Kernel
open Cert.KernelIdeal Cert.KernelIdeal.Gen Cert.KernelIdeal.RiskTail

/-- A scalar has one index. -/
instance : Subsingleton Cert.KernelIdeal.S_.Idx := ⟨fun a b => funext fun d => d.elim0⟩

/-- The kernel program's indicator at query `i` is the float of a word that is 1 exactly when some key's time exceeds `T i`:
    the running maximum of all the times from −∞ is their largest. -/
theorem hasRiskK_apply (T : FVec Ideal Cert.KernelIdeal.S16384 .f32) (i : Fin 16384) :
    ∃ b : BitVec 1, hasRiskK (F := Ideal) T (ix1 i) = FloatOps.uitofp (F := Ideal) .f32 b
      ∧ (b = 1#1 ↔ ∃ k : Fin 16384, T (ix1 i) < T (ix1 k)) := by
  refine ⟨FloatOps.cmpf (F := Ideal) (φ := .f32) .olt (T (ix1 i))
      (broadcastInDim Cert.KernelIdeal.S16384 ![] bcast_S_S16384
        (Host.reduce FloatOps.maximumf T (constant (F := Ideal) Cert.KernelIdeal.S_ .f32 0xFF800000#32) reducesTo_S16384_S_d0 h_S_) (ix1 i)),
    rfl, ?_⟩
  rw [olt_eq_one_iff]
  rw [broadcastInDim_apply _ bcast_S_S16384 _ (ix1 i) ix0 (fun a => a.elim0)]
  rw [Host.reduce_eq_fold FloatOps.maximumf T _ reducesTo_S16384_S_d0 h_S_ ix0]
  rw [Finset.filter_true_of_mem (fun _ _ => Subsingleton.elim _ _)]
  have hinit : (constant (F := Ideal) Cert.KernelIdeal.S_ .f32 0xFF800000#32) (Shape.Idx.first h_S_) = (⊥ : EReal) := negInf
  rw [hinit]
  refine Iff.trans (Risk.lt_fold_max_bot (α := EReal) Finset.univ T (T (ix1 i))) ?_
  constructor
  · rintro ⟨j, -, hj⟩
    exact ⟨j 0, lt_of_lt_of_eq hj (congrArg T (eq_ix1 j))⟩
  · rintro ⟨k, hk⟩
    exact ⟨ix1 k, Finset.mem_univ _, hk⟩

end Kernel

/-! ## The reference's word -/

section Reference
open Cert.ReferenceIdeal Cert.ReferenceIdeal.Gen Cert.ReferenceIdeal.RefRun Cert.ReferenceIdeal.RefRead

/-- The entry of the square table a reduction along the keys reads at step `k` for query `i`. -/
theorem lift_row (hR : Cert.ReferenceIdeal.S16384x16384.Reduces [1] Cert.ReferenceIdeal.S16384) (i : Fin 16384)
    (k : Fin (Cert.ReferenceIdeal.S16384x16384.size 1)) : hR.lift (ix1 i) k = ix2 i (⟨k.val, k.isLt⟩ : Fin 16384) := by
  funext c; apply Fin.ext
  fin_cases c <;> rfl

/-- The reference's indicator at query `i` is the float of a word that is 1 exactly when some key's time exceeds `T i`:
    the count of such keys, at most 16384 of them, does not wrap. -/
theorem hasRisk_apply (T : FVec Ideal Cert.ReferenceIdeal.S16384 .f32) (i : Fin 16384) :
    ∃ b : BitVec 1, hasRisk (F := Ideal) T (ix1 i) = FloatOps.uitofp (F := Ideal) .f32 b
      ∧ (b = 1#1 ↔ ∃ k : Fin 16384, T (ix1 i) < T (ix1 k)) := by
  have hR : Cert.ReferenceIdeal.S16384x16384.Reduces [1] Cert.ReferenceIdeal.S16384 := by decide
  refine ⟨IntOp.cmpi .sgt (riskCount (F := Ideal) T (ix1 i))
      (broadcastInDim Cert.ReferenceIdeal.S16384 ![] bcast_S_S16384 (constantI Cert.ReferenceIdeal.S_ 32 0#32) (ix1 i)), rfl, ?_⟩
  rw [broadcastInDim_apply _ bcast_S_S16384 _ (ix1 i) ix0 (fun a => a.elim0)]
  show IntOp.cmpi .sgt (riskCount (F := Ideal) T (ix1 i)) 0#32 = 1#1 ↔ _
  unfold riskCount
  rw [Host.reduce_eq_fold_single IntOp.addi _ _ reducesTo_S16384x16384_S16384_d1 hR h_S_ (ix1 i)]
  show IntOp.cmpi .sgt (Finset.univ.fold IntOp.addi 0#32
      (fun k : Fin 16384 => (mask (F := Ideal) T (hR.lift (ix1 i) k)).setWidth 32)) 0#32 = 1#1 ↔ _
  have hw : ∀ k : Fin 16384, (mask (F := Ideal) T (hR.lift (ix1 i) k)).setWidth 32 = 0#32
      ∨ (mask (F := Ideal) T (hR.lift (ix1 i) k)).setWidth 32 = 1#32 := fun k => widen_zero_or_one _
  rw [Risk.count_pos_iff _ hw Finset.univ (by rw [Finset.card_univ, Fintype.card_fin]; decide)]
  constructor
  · rintro ⟨k, -, hk⟩
    refine ⟨k, ?_⟩
    rw [widen_eq_one_iff, lift_row hR i k, mask_apply T i ⟨k.val, k.isLt⟩, olt_eq_one_iff] at hk
    exact hk
  · rintro ⟨k, hk⟩
    refine ⟨k, Finset.mem_univ _, ?_⟩
    rw [widen_eq_one_iff, lift_row hR i k, mask_apply T i ⟨k.val, k.isLt⟩, olt_eq_one_iff]
    exact hk

end Reference

/-! ## The two indicators are one vector -/

/-- The kernel program's and the reference's indicators of a non-empty risk set agree at every query. -/
theorem hasRisk_eq (T : FVec Ideal Cert.KernelIdeal.S16384 .f32) :
    Cert.KernelIdeal.RiskTail.hasRiskK (F := Ideal) T = Cert.ReferenceIdeal.RefRun.hasRisk (F := Ideal) T := by
  funext j
  obtain ⟨i, rfl⟩ : ∃ i : Fin 16384, j = ix1 i := ⟨j 0, eq_ix1 j⟩
  obtain ⟨b₁, e₁, h₁⟩ := hasRiskK_apply T i
  obtain ⟨b₂, e₂, h₂⟩ := hasRisk_apply T i
  rw [e₁, e₂, bit_eq_of_iff b₁ b₂ (h₁.trans h₂.symm)]

end Cert.Proof.Indicator

end
-- ==== Proof.lean ====
/-
  The Cox partial-likelihood loss computed by a tiled kernel equals its plain reference, on the extended reals.

  Both programs compute, from predictions `P`, times `T` and event words `E` of N = 16384 samples,

      psum i = Σ_k (if T i < T k then exp (P k) else 0)           the risk-set sum of sample i
      hr i   = 1 if some T k exceeds T i, else 0                  a non-empty risk set
      loss   = −(Σ_i log(clip(exp (P i) / (psum i + ε))) · float(E i) · hr i) / (Σ_i float(E i) · hr i),

  the clip to [ε, max_i (exp (P i) / (psum i + ε))]. They differ in two places only.

  * The sum. The reference adds a whole row of the N-by-N masked table at once. The kernel visits an 8-by-8 grid of
    2048-by-2048 tiles; for each query tile it resets an accumulator row at the first key tile, adds each key tile's
    column sums, and writes the row out at the last key tile. Addition of extended reals is commutative and
    associative, so the eight partial sums over consecutive runs of 2048 keys add up to the sum over all keys; no
    finiteness of the inputs is used.
  * The indicator. The reference counts the keys with a larger time (a 32-bit count of at most 16384, which cannot
    wrap) and asks whether the count is positive; the kernel program asks whether T i is below the largest time. A
    finite maximum is attained, so both say: some T k exceeds T i.

  Everything after these two quantities is the same sequence of operations in both programs, applied to equal operands.
  The three frame claims are the generated frames of the two kernel programs and the reference's run with its result
  dropped; the idealization rewrote nothing, so its claim is trivial.
-/
import proofs.«146655_j61873298866766_2_alg».proof.Defs
import proofs.«146655_j61873298866766_2_alg».proof.Proof.Gen.Kernel
import proofs.«146655_j61873298866766_2_alg».proof.Proof.Gen.Kernel.Frame
import proofs.«146655_j61873298866766_2_alg».proof.Proof.Gen.KernelIdeal
import proofs.«146655_j61873298866766_2_alg».proof.Proof.Gen.KernelIdeal.Frame
import proofs.«146655_j61873298866766_2_alg».proof.Proof.Gen.ReferenceIdeal
import proofs.«146655_j61873298866766_2_alg».proof.Proof.Gen.Pre_finite_inputs
import proofs.«146655_j61873298866766_2_alg».proof.Proof.RefRun
import proofs.«146655_j61873298866766_2_alg».proof.Proof.RegionValue
import proofs.«146655_j61873298866766_2_alg».proof.Proof.KernelTail
import proofs.«146655_j61873298866766_2_alg».proof.Proof.BridgeSum
import proofs.«146655_j61873298866766_2_alg».proof.Proof.BridgeRisk
import Idealize.ShloMosaic.Lib.ValueLayout
import Idealize.ShloMosaic.Adequacy
import Idealize.ShloMosaic.Init

noncomputable section

namespace Cert.Proof

open Idealize.ShloMosaic Idealize.ShloMosaic.ValueIdx Idealize.SL.Sem

/-! ## The two results are one function of the arguments -/

/-- Given that the region's result row holds the risk-set sums, the kernel program's result is the reference's: the
    row taken back to a vector is the reference's vector of sums, the two indicators agree, and the rest is shared. -/
theorem result_eq (P T : FVec Ideal Cert.KernelIdeal.S16384 .f32) (E : IVec Cert.KernelIdeal.S16384 32)
    (row : FVec Ideal Cert.KernelIdeal.S1x16384 .f32)
    (hrow : ∀ i : Fin 16384, row (ix2 (0 : Fin 1) i)
        = ∑ k : Fin 16384, (if T (ix1 i) < T (ix1 k) then Host.exp P (ix1 k) else 0)) :
    Cert.KernelIdeal.RiskTail.outK (F := Ideal) (Host.exp P) row T E = Cert.ReferenceIdeal.RefRun.out (F := Ideal) P T E := by
  have e1 : shapeCast Cert.KernelIdeal.S16384 row Cert.KernelIdeal.Gen.shapeCasts_S1x16384_S16384
      = Cert.ReferenceIdeal.RefRun.riskSum (F := Ideal) P T := by
    funext j
    obtain ⟨i, rfl⟩ : ∃ i : Fin 16384, j = ix1 i := ⟨j 0, eq_ix1 j⟩
    rw [Cert.ReferenceIdeal.RefRead.riskSum_apply]
    exact (shapeCast_1a_a_apply row _ i).trans (hrow i)
  unfold Cert.KernelIdeal.RiskTail.outK Cert.ReferenceIdeal.RefRun.out
  rw [e1, Cert.Proof.Indicator.hasRisk_eq T]

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- On the extended reals both programs, run from memories agreeing on the arguments, end with the same loss. -/
theorem algebraic : Cert.algebraic_KernelIdeal_ReferenceIdeal := by
  intro m ρ m' ρ' _ hagree
  refine ⟨_, Cert.KernelIdeal.RiskTail.run (F := Ideal) m ρ (fun c => Cert.KernelIdeal.RiskBody.psumRow m c)
    (fun c => Cert.KernelIdeal.RiskBody.final m c), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (result_eq (Cert.KernelIdeal.RiskBody.Parg m c) (Cert.KernelIdeal.RiskBody.Targ m c) _
    (Cert.KernelIdeal.RiskBody.psumRow m c)
    (fun i => (Cert.KernelIdeal.RiskBody.psumRow_apply m c (0 : Fin 1) i).trans
      (Finset.sum_congr rfl fun k _ => Cert.KernelIdeal.RiskBody.term_eq m c i k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
